-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512 : Shape := ⟨2, ![4, 512]⟩
abbrev S1025x12 : Shape := ⟨2, ![1025, 12]⟩
abbrev S48x12 : Shape := ⟨2, ![48, 12]⟩
abbrev S12 : Shape := ⟨1, ![12]⟩
abbrev S_ : Shape := ⟨0, ![]⟩

class Facts : Prop where
  bcast_S_S1025x12 : S_.BroadcastsInDim S1025x12 (![] : Fin 0 → Fin S1025x12.rank)
  reducesTo_S1025x12_S_d0_1 : S1025x12.ReducesTo [0, 1] S_
  h_S_ : 0 < S_.numel
  bcast_S_S48x12 : S_.BroadcastsInDim S48x12 (![] : Fin 0 → Fin S48x12.rank)
  reducesTo_S48x12_S_d0_1 : S48x12.ReducesTo [0, 1] S_
  bcast_S_S12 : S_.BroadcastsInDim S12 (![] : Fin 0 → Fin S12.rank)
  reducesTo_S12_S_d0 : S12.ReducesTo [0] S_

variable [Facts]

def fn_part1 {F : FTy → Type} [FloatOps F] (main_arg6 : FVec F S48x12 .f32) (main_arg7 : FVec F S12 .f32) (main_v13 : IVec S_ 1) (main_v16 : IVec S1025x12 1) : IVec S_ 1 :=
  let main_c_5 : IVec S_ 1 := constantI S_ 1 1#1
  let main_v17 : IVec S_ 1 := (fun x v => Host.reduce IntOp.andi x v reducesTo_S1025x12_S_d0_1 h_S_) main_v16 main_c_5
  let main_v18 : IVec S_ 1 := andi main_v13 main_v17
  let main_v19 : FVec F S48x12 .f32 := Host.absf main_arg6
  let main_cst_6 : FVec F S_ .f32 := constant S_ .f32 0x7F800000#32
  let main_v20 : FVec F S48x12 .f32 := broadcastInDim S48x12 ![] bcast_S_S48x12 main_cst_6
  let main_v21 : IVec S48x12 1 := cmpf .olt main_v19 main_v20
  let main_c_7 : IVec S_ 1 := constantI S_ 1 1#1
  let main_v22 : IVec S_ 1 := (fun x v => Host.reduce IntOp.andi x v reducesTo_S48x12_S_d0_1 h_S_) main_v21 main_c_7
  let main_v23 : IVec S_ 1 := andi main_v18 main_v22
  let main_v24 : FVec F S12 .f32 := Host.absf main_arg7
  let main_cst_8 : FVec F S_ .f32 := constant S_ .f32 0x7F800000#32
  let main_v25 : FVec F S12 .f32 := broadcastInDim S12 ![] bcast_S_S12 main_cst_8
  let main_v26 : IVec S12 1 := cmpf .olt main_v24 main_v25
  let main_c_9 : IVec S_ 1 := constantI S_ 1 1#1
  let main_v27 : IVec S_ 1 := (fun x v => Host.reduce IntOp.andi x v reducesTo_S12_S_d0 h_S_) main_v26 main_c_9
  let main_v28 : IVec S_ 1 := andi main_v23 main_v27
  main_v28

def fn {F : FTy → Type} [FloatOps F] (main_arg0 : IVec S4x512 32) (main_arg1 : IVec S4x512 32) (main_arg2 : FVec F S1025x12 .f32) (main_arg3 : FVec F S1025x12 .f32) (main_arg4 : FVec F S1025x12 .f32) (main_arg5 : FVec F S1025x12 .f32) (main_arg6 : FVec F S48x12 .f32) (main_arg7 : FVec F S12 .f32) : IVec S_ 1 :=
  let main_v0 : FVec F S1025x12 .f32 := Host.absf main_arg2
  let main_cst : FVec F S_ .f32 := constant S_ .f32 0x7F800000#32
  let main_v1 : FVec F S1025x12 .f32 := broadcastInDim S1025x12 ![] bcast_S_S1025x12 main_cst
  let main_v2 : IVec S1025x12 1 := cmpf .olt main_v0 main_v1
  let main_c : IVec S_ 1 := constantI S_ 1 1#1
  let main_v3 : IVec S_ 1 := (fun x v => Host.reduce IntOp.andi x v reducesTo_S1025x12_S_d0_1 h_S_) main_v2 main_c
  let main_v4 : FVec F S1025x12 .f32 := Host.absf main_arg3
  let main_cst_0 : FVec F S_ .f32 := constant S_ .f32 0x7F800000#32
  let main_v5 : FVec F S1025x12 .f32 := broadcastInDim S1025x12 ![] bcast_S_S1025x12 main_cst_0
  let main_v6 : IVec S1025x12 1 := cmpf .olt main_v4 main_v5
  let main_c_1 : IVec S_ 1 := constantI S_ 1 1#1
  let main_v7 : IVec S_ 1 := (fun x v => Host.reduce IntOp.andi x v reducesTo_S1025x12_S_d0_1 h_S_) main_v6 main_c_1
  let main_v8 : IVec S_ 1 := andi main_v3 main_v7
  let main_v9 : FVec F S1025x12 .f32 := Host.absf main_arg4
  let main_cst_2 : FVec F S_ .f32 := constant S_ .f32 0x7F800000#32
  let main_v10 : FVec F S1025x12 .f32 := broadcastInDim S1025x12 ![] bcast_S_S1025x12 main_cst_2
  let main_v11 : IVec S1025x12 1 := cmpf .olt main_v9 main_v10
  let main_c_3 : IVec S_ 1 := constantI S_ 1 1#1
  let main_v12 : IVec S_ 1 := (fun x v => Host.reduce IntOp.andi x v reducesTo_S1025x12_S_d0_1 h_S_) main_v11 main_c_3
  let main_v13 : IVec S_ 1 := andi main_v8 main_v12
  let main_v14 : FVec F S1025x12 .f32 := Host.absf main_arg5
  let main_cst_4 : FVec F S_ .f32 := constant S_ .f32 0x7F800000#32
  let main_v15 : FVec F S1025x12 .f32 := broadcastInDim S1025x12 ![] bcast_S_S1025x12 main_cst_4
  let main_v16 : IVec S1025x12 1 := cmpf .olt main_v14 main_v15
  fn_part1 (F := F) main_arg6 main_arg7 main_v13 main_v16
-- ==== Kernel.lean ====
abbrev S4x512 : Shape := ⟨2, ![4, 512]⟩
abbrev S1025x12 : Shape := ⟨2, ![1025, 12]⟩
abbrev S48x12 : Shape := ⟨2, ![48, 12]⟩
abbrev S12 : Shape := ⟨1, ![12]⟩
abbrev S4x512x1 : Shape := ⟨3, ![4, 512, 1]⟩
abbrev S4x1x512 : Shape := ⟨3, ![4, 1, 512]⟩
abbrev S4x512x512 : Shape := ⟨3, ![4, 512, 512]⟩
abbrev S_ : Shape := ⟨0, ![]⟩
abbrev S12x12 : Shape := ⟨2, ![12, 12]⟩
abbrev S12x1025 : Shape := ⟨2, ![12, 1025]⟩
abbrev S4x512x512x1 : Shape := ⟨4, ![4, 512, 512, 1]⟩
abbrev S12x4x512x512 : Shape := ⟨4, ![12, 4, 512, 512]⟩
abbrev S12x1 : Shape := ⟨2, ![12, 1]⟩
abbrev S4x12x512x512 : Shape := ⟨4, ![4, 12, 512, 512]⟩
abbrev S12x1x128x512 : Shape := ⟨4, ![12, 1, 128, 512]⟩
abbrev S1x12x128x512 : Shape := ⟨4, ![1, 12, 128, 512]⟩
abbrev S12x128x512 : Shape := ⟨3, ![12, 128, 512]⟩
abbrev S12x1x1 : Shape := ⟨3, ![12, 1, 1]⟩

abbrev nBuf : Space → Nat
  | .hbm => 94
  | .vmem => 11
  | .smem => 0
  | _ => 0

abbrev bufTy : (tb : Table) → Fin (tcTables nBuf tb) → BufTy
  | .hbm, ⟨0, _⟩ => ⟨S4x512, .i32⟩
  | .hbm, ⟨1, _⟩ => ⟨S4x512, .i32⟩
  | .hbm, ⟨2, _⟩ => ⟨S1025x12, .f32⟩
  | .hbm, ⟨3, _⟩ => ⟨S1025x12, .f32⟩
  | .hbm, ⟨4, _⟩ => ⟨S1025x12, .f32⟩
  | .hbm, ⟨5, _⟩ => ⟨S1025x12, .f32⟩
  | .hbm, ⟨6, _⟩ => ⟨S48x12, .f32⟩
  | .hbm, ⟨7, _⟩ => ⟨S12, .f32⟩
  | .hbm, ⟨8, _⟩ => ⟨S4x512x1, .i32⟩
  | .hbm, ⟨9, _⟩ => ⟨S4x1x512, .i32⟩
  | .hbm, ⟨10, _⟩ => ⟨S4x512x512, .i32⟩
  | .hbm, ⟨11, _⟩ => ⟨S4x512x512, .i32⟩
  | .hbm, ⟨12, _⟩ => ⟨S4x512x512, .i32⟩
  | .hbm, ⟨13, _⟩ => ⟨S_, .i32⟩
  | .hbm, ⟨14, _⟩ => ⟨S4x512x512, .i32⟩
  | .hbm, ⟨15, _⟩ => ⟨S4x512x512, .i32⟩
  | .hbm, ⟨16, _⟩ => ⟨S4x512x1, .i32⟩
  | .hbm, ⟨17, _⟩ => ⟨S4x1x512, .i32⟩
  | .hbm, ⟨18, _⟩ => ⟨S4x512x512, .i32⟩
  | .hbm, ⟨19, _⟩ => ⟨S4x512x512, .i32⟩
  | .hbm, ⟨20, _⟩ => ⟨S4x512x512, .i32⟩
  | .hbm, ⟨21, _⟩ => ⟨S_, .i32⟩
  | .hbm, ⟨22, _⟩ => ⟨S4x512x512, .i32⟩
  | .hbm, ⟨23, _⟩ => ⟨S4x512x512, .i32⟩
  | .hbm, ⟨24, _⟩ => ⟨S4x512x1, .i32⟩
  | .hbm, ⟨25, _⟩ => ⟨S4x1x512, .i32⟩
  | .hbm, ⟨26, _⟩ => ⟨S4x512x512, .i32⟩
  | .hbm, ⟨27, _⟩ => ⟨S4x512x512, .i32⟩
  | .hbm, ⟨28, _⟩ => ⟨S4x512x512, .i32⟩
  | .hbm, ⟨29, _⟩ => ⟨S_, .i32⟩
  | .hbm, ⟨30, _⟩ => ⟨S4x512x512, .i32⟩
  | .hbm, ⟨31, _⟩ => ⟨S4x512x512, .i32⟩
  | .hbm, ⟨32, _⟩ => ⟨S4x512x1, .i32⟩
  | .hbm, ⟨33, _⟩ => ⟨S4x1x512, .i32⟩
  | .hbm, ⟨34, _⟩ => ⟨S4x512x512, .i32⟩
  | .hbm, ⟨35, _⟩ => ⟨S4x512x512, .i32⟩
  | .hbm, ⟨36, _⟩ => ⟨S4x512x512, .i32⟩
  | .hbm, ⟨37, _⟩ => ⟨S_, .i32⟩
  | .hbm, ⟨38, _⟩ => ⟨S4x512x512, .i32⟩
  | .hbm, ⟨39, _⟩ => ⟨S4x512x512, .i32⟩
  | .hbm, ⟨40, _⟩ => ⟨S12x12, .f32⟩
  | .hbm, ⟨41, _⟩ => ⟨S12x12, .f32⟩
  | .hbm, ⟨42, _⟩ => ⟨S12x12, .f32⟩
  | .hbm, ⟨43, _⟩ => ⟨S12x12, .f32⟩
  | .hbm, ⟨44, _⟩ => ⟨S1025x12, .f32⟩
  | .hbm, ⟨45, _⟩ => ⟨S1025x12, .f32⟩
  | .hbm, ⟨46, _⟩ => ⟨S1025x12, .f32⟩
  | .hbm, ⟨47, _⟩ => ⟨S1025x12, .f32⟩
  | .hbm, ⟨48, _⟩ => ⟨S1025x12, .bf16⟩
  | .hbm, ⟨49, _⟩ => ⟨S12x1025, .bf16⟩
  | .hbm, ⟨50, _⟩ => ⟨S1025x12, .bf16⟩
  | .hbm, ⟨51, _⟩ => ⟨S12x1025, .bf16⟩
  | .hbm, ⟨52, _⟩ => ⟨S1025x12, .bf16⟩
  | .hbm, ⟨53, _⟩ => ⟨S12x1025, .bf16⟩
  | .hbm, ⟨54, _⟩ => ⟨S1025x12, .bf16⟩
  | .hbm, ⟨55, _⟩ => ⟨S12x1025, .bf16⟩
  | .hbm, ⟨56, _⟩ => ⟨S_, .i32⟩
  | .hbm, ⟨57, _⟩ => ⟨S4x512x512, .i32⟩
  | .hbm, ⟨58, _⟩ => ⟨S4x512x512, .i1⟩
  | .hbm, ⟨59, _⟩ => ⟨S_, .i32⟩
  | .hbm, ⟨60, _⟩ => ⟨S4x512x512, .i32⟩
  | .hbm, ⟨61, _⟩ => ⟨S4x512x512, .i32⟩
  | .hbm, ⟨62, _⟩ => ⟨S4x512x512, .i32⟩
  | .hbm, ⟨63, _⟩ => ⟨S4x512x512x1, .i32⟩
  | .hbm, ⟨64, _⟩ => ⟨S12x4x512x512, .bf16⟩
  | .hbm, ⟨65, _⟩ => ⟨S_, .i32⟩
  | .hbm, ⟨66, _⟩ => ⟨S4x512x512, .i32⟩
  | .hbm, ⟨67, _⟩ => ⟨S4x512x512, .i1⟩
  | .hbm, ⟨68, _⟩ => ⟨S_, .i32⟩
  | .hbm, ⟨69, _⟩ => ⟨S4x512x512, .i32⟩
  | .hbm, ⟨70, _⟩ => ⟨S4x512x512, .i32⟩
  | .hbm, ⟨71, _⟩ => ⟨S4x512x512, .i32⟩
  | .hbm, ⟨72, _⟩ => ⟨S4x512x512x1, .i32⟩
  | .hbm, ⟨73, _⟩ => ⟨S12x4x512x512, .bf16⟩
  | .hbm, ⟨74, _⟩ => ⟨S_, .i32⟩
  | .hbm, ⟨75, _⟩ => ⟨S4x512x512, .i32⟩
  | .hbm, ⟨76, _⟩ => ⟨S4x512x512, .i1⟩
  | .hbm, ⟨77, _⟩ => ⟨S_, .i32⟩
  | .hbm, ⟨78, _⟩ => ⟨S4x512x512, .i32⟩
  | .hbm, ⟨79, _⟩ => ⟨S4x512x512, .i32⟩
  | .hbm, ⟨80, _⟩ => ⟨S4x512x512, .i32⟩
  | .hbm, ⟨81, _⟩ => ⟨S4x512x512x1, .i32⟩
  | .hbm, ⟨82, _⟩ => ⟨S12x4x512x512, .bf16⟩
  | .hbm, ⟨83, _⟩ => ⟨S_, .i32⟩
  | .hbm, ⟨84, _⟩ => ⟨S4x512x512, .i32⟩
  | .hbm, ⟨85, _⟩ => ⟨S4x512x512, .i1⟩
  | .hbm, ⟨86, _⟩ => ⟨S_, .i32⟩
  | .hbm, ⟨87, _⟩ => ⟨S4x512x512, .i32⟩
  | .hbm, ⟨88, _⟩ => ⟨S4x512x512, .i32⟩
  | .hbm, ⟨89, _⟩ => ⟨S4x512x512, .i32⟩
  | .hbm, ⟨90, _⟩ => ⟨S4x512x512x1, .i32⟩
  | .hbm, ⟨91, _⟩ => ⟨S12x4x512x512, .bf16⟩
  | .hbm, ⟨92, _⟩ => ⟨S12x1, .f32⟩
  | .hbm, ⟨93, _⟩ => ⟨S4x12x512x512, .f32⟩
  | .local _ .vmem, ⟨0, _⟩ => ⟨S12x1x128x512, .bf16⟩
  | .local _ .vmem, ⟨1, _⟩ => ⟨S12x1x128x512, .bf16⟩
  | .local _ .vmem, ⟨2, _⟩ => ⟨S12x1x128x512, .bf16⟩
  | .local _ .vmem, ⟨3, _⟩ => ⟨S12x1x128x512, .bf16⟩
  | .local _ .vmem, ⟨4, _⟩ => ⟨S12x1x128x512, .bf16⟩
  | .local _ .vmem, ⟨5, _⟩ => ⟨S12x1x128x512, .bf16⟩
  | .local _ .vmem, ⟨6, _⟩ => ⟨S12x1x128x512, .bf16⟩
  | .local _ .vmem, ⟨7, _⟩ => ⟨S12x1x128x512, .bf16⟩
  | .local _ .vmem, ⟨8, _⟩ => ⟨S12x1, .f32⟩
  | .local _ .vmem, ⟨9, _⟩ => ⟨S1x12x128x512, .f32⟩
  | .local _ .vmem, ⟨10, _⟩ => ⟨S1x12x128x512, .f32⟩
  | _, _ => ⟨S4x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_3 : Ref sig .tc := ⟨.hbm, 56, rfl⟩
abbrev main_v44 : Ref sig .tc := ⟨.hbm, 57, rfl⟩
abbrev main_v45 : Ref sig .tc := ⟨.hbm, 58, rfl⟩
abbrev main_c_4 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_5 : Ref sig .tc := ⟨.hbm, 65, rfl⟩
abbrev main_v51 : Ref sig .tc := ⟨.hbm, 66, rfl⟩
abbrev main_v52 : Ref sig .tc := ⟨.hbm, 67, rfl⟩
abbrev main_c_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_7 : Ref sig .tc := ⟨.hbm, 74, rfl⟩
abbrev main_v58 : Ref sig .tc := ⟨.hbm, 75, rfl⟩
abbrev main_v59 : Ref sig .tc := ⟨.hbm, 76, rfl⟩
abbrev main_c_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_c_9 : Ref sig .tc := ⟨.hbm, 83, rfl⟩
abbrev main_v65 : Ref sig .tc := ⟨.hbm, 84, rfl⟩
abbrev main_v66 : Ref sig .tc := ⟨.hbm, 85, rfl⟩
abbrev main_c_10 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S12x1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S12x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S12x1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S12x1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S12x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x12x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bcast_S4x512_S4x512x1_0_1 : S4x512.BroadcastsInDim S4x512x1 (![0, 1] : Fin 2 → Fin S4x512x1.rank)
  bcast_S4x512_S4x1x512_0_2 : S4x512.BroadcastsInDim S4x1x512 (![0, 2] : Fin 2 → Fin S4x1x512.rank)
  bcast_S4x512x1_S4x512x512_0_1_2 : S4x512x1.BroadcastsInDim S4x512x512 (![0, 1, 2] : Fin 3 → Fin S4x512x512.rank)
  bcast_S4x1x512_S4x512x512_0_1_2 : S4x1x512.BroadcastsInDim S4x512x512 (![0, 1, 2] : Fin 3 → Fin S4x512x512.rank)
  bcast_S_S4x512x512 : S_.BroadcastsInDim S4x512x512 (![] : Fin 0 → Fin S4x512x512.rank)
  slices_S48x12_S12x12_0_0 : S48x12.Slices ![0, 0] S12x12
  slices_S48x12_S12x12_12_0 : S48x12.Slices ![12, 0] S12x12
  slices_S48x12_S12x12_24_0 : S48x12.Slices ![24, 0] S12x12
  slices_S48x12_S12x12_36_0 : S48x12.Slices ![36, 0] S12x12
  bitsLt_bf16_f32 : FTy.bits .bf16 < FTy.bits .f32
  transposes_S1025x12_S12x1025_1_0 : S1025x12.Transposes [1, 0] S12x1025
  bcast_S4x512x512_S4x512x512x1_0_1_2 : S4x512x512.BroadcastsInDim S4x512x512x1 (![0, 1, 2] : Fin 3 → Fin S4x512x512x1.rank)
  shapeCasts_S12_S12x1 : S12.ShapeCasts S12x1
  inb_S12x1x128x512_S12x1x128x512_0_0_0_0 : ∀ a, (![0, 0, 0, 0] : Fin 4 → Nat) a + S12x1x128x512.size a ≤ S12x1x128x512.size a
  h_S12x1x128x512 : 0 < S12x1x128x512.numel
  shapeCasts_S12x1x128x512_S12x128x512 : S12x1x128x512.ShapeCasts S12x128x512
  inb_S12x1_S12x1_0_0 : ∀ a, (![0, 0] : Fin 2 → Nat) a + S12x1.size a ≤ S12x1.size a
  h_S12x1 : 0 < S12x1.numel
  shapeCasts_S12x1_S12x1 : S12x1.ShapeCasts S12x1
  shapeCasts_S12x1_S12x1x1 : S12x1.ShapeCasts S12x1x1
  broadcasts_S12x1x1_S12x128x512 : S12x1x1.Broadcasts S12x128x512
  inb_S1x12x128x512_S1x12x128x512_0_0_0_0 : ∀ a, (![0, 0, 0, 0] : Fin 4 → Nat) a + S1x12x128x512.size a ≤ S1x12x128x512.size a
  h_S1x12x128x512 : 0 < S1x12x128x512.numel
  shapeCasts_S1x12x128x512_S12x128x512 : S1x12x128x512.ShapeCasts S12x128x512
  shapeCasts_S12x128x512_S1x12x128x512 : S12x128x512.ShapeCasts S1x12x128x512
  dot_S1025x12_S12x12_S1025x12_1_0_0_1_n_n_wf : DotDims.WF S1025x12 S12x12 S1025x12 [1] [0] [0] [1] [] []
  gather_S12x1025_S4x512x512x1_S12x4x512x512_0_1_n_n_1_3_121_wf : GatherDims.WF S12x1025 S4x512x512x1 S12x4x512x512 [0] [1] [] [1] [] 3 ![12, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12x1x128x512.size a ≤ S12x4x512x512.size a
  hwx0_0 : ∀ i : grid0.Coords, EltTy.bits .bf16 = 32 ∨ (Rect.block (s := S12x4x512x512) S12x1x128x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12x1x128x512.size a ≤ S12x4x512x512.size a
  hwx0_1 : ∀ i : grid0.Coords, EltTy.bits .bf16 = 32 ∨ (Rect.block (s := S12x4x512x512) S12x1x128x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12x1x128x512.size a ≤ S12x4x512x512.size a
  hwx0_2 : ∀ i : grid0.Coords, EltTy.bits .bf16 = 32 ∨ (Rect.block (s := S12x4x512x512) S12x1x128x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S12x1x128x512.size a ≤ S12x4x512x512.size a
  hwx0_3 : ∀ i : grid0.Coords, EltTy.bits .bf16 = 32 ∨ (Rect.block (s := S12x4x512x512) S12x1x128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x1.size a ≤ S12x1.size a
  hwx0_4 : ∀ i : grid0.Coords, EltTy.bits .f32 = 32 ∨ (Rect.block (s := S12x1) S12x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x12x128x512.size a ≤ S4x12x512x512.size a
  hwx0_5 : ∀ i : grid0.Coords, EltTy.bits .f32 = 32 ∨ (Rect.block (s := S4x12x512x512) S1x12x128x512.size (cc0_transform_5 i) (hinb0_5 i)).WholeWords (EltTy.packing .f32)

variable [Facts₀]

def dot_S1025x12_S12x12_S1025x12_1_0_0_1_n_n : DotDims S1025x12 S12x12 S1025x12 where
  lhsContracting := [1]
  rhsContracting := [0]
  lhsNonContracting := [0]
  rhsNonContracting := [1]
  lhsBatch := []
  rhsBatch := []
  wf := dot_S1025x12_S12x12_S1025x12_1_0_0_1_n_n_wf
def gather_S12x1025_S4x512x512x1_S12x4x512x512_0_1_n_n_1_3_121 : GatherDims S12x1025 S4x512x512x1 S12x4x512x512 where
  offsetDims := [0]
  collapsedSliceDims := [1]
  operandBatchingDims := []
  startIndicesBatchingDims := []
  startIndexMap := [1]
  indexVectorDim := 3
  sliceSizes := ![12, 1]
  wf := gather_S12x1025_S4x512x512x1_S12x4x512x512_0_1_n_n_1_3_121_wf

abbrev win0_0 : Pipeline.Window sig grid0 :=
  Pipeline.Window.ofSpec (Memref.whole main_v50) S12x1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v57) S12x1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v64) S12x1x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v71) S12x1x128x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v72) S12x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v73) S1x12x128x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x512 : Shape := ⟨2, ![4, 512]⟩
abbrev S1025x12 : Shape := ⟨2, ![1025, 12]⟩
abbrev S48x12 : Shape := ⟨2, ![48, 12]⟩
abbrev S12 : Shape := ⟨1, ![12]⟩
abbrev S4x512x1 : Shape := ⟨3, ![4, 512, 1]⟩
abbrev S4x1x512 : Shape := ⟨3, ![4, 1, 512]⟩
abbrev S4x512x512 : Shape := ⟨3, ![4, 512, 512]⟩
abbrev S_ : Shape := ⟨0, ![]⟩
abbrev S4x512x512x1 : Shape := ⟨4, ![4, 512, 512, 1]⟩
abbrev S4x512x512x12 : Shape := ⟨4, ![4, 512, 512, 12]⟩
abbrev S4x512x512x48 : Shape := ⟨4, ![4, 512, 512, 48]⟩
abbrev S1x1x1x12 : Shape := ⟨4, ![1, 1, 1, 12]⟩
abbrev S4x12x512x512 : Shape := ⟨4, ![4, 12, 512, 512]⟩

abbrev nBuf : Space → Nat
  | .hbm => 85
  | .vmem => 0
  | .smem => 0
  | _ => 0

abbrev bufTy : (tb : Table) → Fin (tcTables nBuf tb) → BufTy
  | .hbm, ⟨0, _⟩ => ⟨S4x512, .i32⟩
  | .hbm, ⟨1, _⟩ => ⟨S4x512, .i32⟩
  | .hbm, ⟨2, _⟩ => ⟨S1025x12, .f32⟩
  | .hbm, ⟨3, _⟩ => ⟨S1025x12, .f32⟩
  | .hbm, ⟨4, _⟩ => ⟨S1025x12, .f32⟩
  | .hbm, ⟨5, _⟩ => ⟨S1025x12, .f32⟩
  | .hbm, ⟨6, _⟩ => ⟨S48x12, .f32⟩
  | .hbm, ⟨7, _⟩ => ⟨S12, .f32⟩
  | .hbm, ⟨8, _⟩ => ⟨S4x512x1, .i32⟩
  | .hbm, ⟨9, _⟩ => ⟨S4x1x512, .i32⟩
  | .hbm, ⟨10, _⟩ => ⟨S4x512x512, .i32⟩
  | .hbm, ⟨11, _⟩ => ⟨S4x512x512, .i32⟩
  | .hbm, ⟨12, _⟩ => ⟨S4x512x512, .i32⟩
  | .hbm, ⟨13, _⟩ => ⟨S_, .i32⟩
  | .hbm, ⟨14, _⟩ => ⟨S4x512x512, .i32⟩
  | .hbm, ⟨15, _⟩ => ⟨S4x512x512, .i32⟩
  | .hbm, ⟨16, _⟩ => ⟨S4x512x1, .i32⟩
  | .hbm, ⟨17, _⟩ => ⟨S4x1x512, .i32⟩
  | .hbm, ⟨18, _⟩ => ⟨S4x512x512, .i32⟩
  | .hbm, ⟨19, _⟩ => ⟨S4x512x512, .i32⟩
  | .hbm, ⟨20, _⟩ => ⟨S4x512x512, .i32⟩
  | .hbm, ⟨21, _⟩ => ⟨S_, .i32⟩
  | .hbm, ⟨22, _⟩ => ⟨S4x512x512, .i32⟩
  | .hbm, ⟨23, _⟩ => ⟨S4x512x512, .i32⟩
  | .hbm, ⟨24, _⟩ => ⟨S4x512x1, .i32⟩
  | .hbm, ⟨25, _⟩ => ⟨S4x1x512, .i32⟩
  | .hbm, ⟨26, _⟩ => ⟨S4x512x512, .i32⟩
  | .hbm, ⟨27, _⟩ => ⟨S4x512x512, .i32⟩
  | .hbm, ⟨28, _⟩ => ⟨S4x512x512, .i32⟩
  | .hbm, ⟨29, _⟩ => ⟨S_, .i32⟩
  | .hbm, ⟨30, _⟩ => ⟨S4x512x512, .i32⟩
  | .hbm, ⟨31, _⟩ => ⟨S4x512x512, .i32⟩
  | .hbm, ⟨32, _⟩ => ⟨S4x512x1, .i32⟩
  | .hbm, ⟨33, _⟩ => ⟨S4x1x512, .i32⟩
  | .hbm, ⟨34, _⟩ => ⟨S4x512x512, .i32⟩
  | .hbm, ⟨35, _⟩ => ⟨S4x512x512, .i32⟩
  | .hbm, ⟨36, _⟩ => ⟨S4x512x512, .i32⟩
  | .hbm, ⟨37, _⟩ => ⟨S_, .i32⟩
  | .hbm, ⟨38, _⟩ => ⟨S4x512x512, .i32⟩
  | .hbm, ⟨39, _⟩ => ⟨S4x512x512, .i32⟩
  | .hbm, ⟨40, _⟩ => ⟨S_, .i32⟩
  | .hbm, ⟨41, _⟩ => ⟨S4x512x512, .i32⟩
  | .hbm, ⟨42, _⟩ => ⟨S4x512x512, .i1⟩
  | .hbm, ⟨43, _⟩ => ⟨S_, .i32⟩
  | .hbm, ⟨44, _⟩ => ⟨S4x512x512, .i32⟩
  | .hbm, ⟨45, _⟩ => ⟨S4x512x512, .i32⟩
  | .hbm, ⟨46, _⟩ => ⟨S4x512x512, .i32⟩
  | .hbm, ⟨47, _⟩ => ⟨S4x512x512x1, .i32⟩
  | .hbm, ⟨48, _⟩ => ⟨S4x512x512x12, .f32⟩
  | .hbm, ⟨49, _⟩ => ⟨S_, .i32⟩
  | .hbm, ⟨50, _⟩ => ⟨S4x512x512, .i32⟩
  | .hbm, ⟨51, _⟩ => ⟨S4x512x512, .i1⟩
  | .hbm, ⟨52, _⟩ => ⟨S_, .i32⟩
  | .hbm, ⟨53, _⟩ => ⟨S4x512x512, .i32⟩
  | .hbm, ⟨54, _⟩ => ⟨S4x512x512, .i32⟩
  | .hbm, ⟨55, _⟩ => ⟨S4x512x512, .i32⟩
  | .hbm, ⟨56, _⟩ => ⟨S4x512x512x1, .i32⟩
  | .hbm, ⟨57, _⟩ => ⟨S4x512x512x12, .f32⟩
  | .hbm, ⟨58, _⟩ => ⟨S_, .i32⟩
  | .hbm, ⟨59, _⟩ => ⟨S4x512x512, .i32⟩
  | .hbm, ⟨60, _⟩ => ⟨S4x512x512, .i1⟩
  | .hbm, ⟨61, _⟩ => ⟨S_, .i32⟩
  | .hbm, ⟨62, _⟩ => ⟨S4x512x512, .i32⟩
  | .hbm, ⟨63, _⟩ => ⟨S4x512x512, .i32⟩
  | .hbm, ⟨64, _⟩ => ⟨S4x512x512, .i32⟩
  | .hbm, ⟨65, _⟩ => ⟨S4x512x512x1, .i32⟩
  | .hbm, ⟨66, _⟩ => ⟨S4x512x512x12, .f32⟩
  | .hbm, ⟨67, _⟩ => ⟨S_, .i32⟩
  | .hbm, ⟨68, _⟩ => ⟨S4x512x512, .i32⟩
  | .hbm, ⟨69, _⟩ => ⟨S4x512x512, .i1⟩
  | .hbm, ⟨70, _⟩ => ⟨S_, .i32⟩
  | .hbm, ⟨71, _⟩ => ⟨S4x512x512, .i32⟩
  | .hbm, ⟨72, _⟩ => ⟨S4x512x512, .i32⟩
  | .hbm, ⟨73, _⟩ => ⟨S4x512x512, .i32⟩
  | .hbm, ⟨74, _⟩ => ⟨S4x512x512x1, .i32⟩
  | .hbm, ⟨75, _⟩ => ⟨S4x512x512x12, .f32⟩
  | .hbm, ⟨76, _⟩ => ⟨S4x512x512x48, .f32⟩
  | .hbm, ⟨77, _⟩ => ⟨S4x512x512x12, .f32⟩
  | .hbm, ⟨78, _⟩ => ⟨S1x1x1x12, .f32⟩
  | .hbm, ⟨79, _⟩ => ⟨S4x512x512x12, .f32⟩
  | .hbm, ⟨80, _⟩ => ⟨S4x512x512x12, .f32⟩
  | .hbm, ⟨81, _⟩ => ⟨S_, .f32⟩
  | .hbm, ⟨82, _⟩ => ⟨S4x512x512x12, .f32⟩
  | .hbm, ⟨83, _⟩ => ⟨S4x512x512x12, .f32⟩
  | .hbm, ⟨84, _⟩ => ⟨S4x12x512x512, .f32⟩
  | _, _ => ⟨S4x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_c_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call0_cst : Ref sig .tc := ⟨.hbm, 81, rfl⟩
abbrev main_call0_v0 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  bcast_S4x512_S4x512x1_0_1 : S4x512.BroadcastsInDim S4x512x1 (![0, 1] : Fin 2 → Fin S4x512x1.rank)
  bcast_S4x512_S4x1x512_0_2 : S4x512.BroadcastsInDim S4x1x512 (![0, 2] : Fin 2 → Fin S4x1x512.rank)
  bcast_S4x512x1_S4x512x512_0_1_2 : S4x512x1.BroadcastsInDim S4x512x512 (![0, 1, 2] : Fin 3 → Fin S4x512x512.rank)
  bcast_S4x1x512_S4x512x512_0_1_2 : S4x1x512.BroadcastsInDim S4x512x512 (![0, 1, 2] : Fin 3 → Fin S4x512x512.rank)
  bcast_S_S4x512x512 : S_.BroadcastsInDim S4x512x512 (![] : Fin 0 → Fin S4x512x512.rank)
  bcast_S4x512x512_S4x512x512x1_0_1_2 : S4x512x512.BroadcastsInDim S4x512x512x1 (![0, 1, 2] : Fin 3 → Fin S4x512x512x1.rank)
  concatenates_S4x512x512x12_S4x512x512x12_S4x512x512x12_S4x512x512x12_S4x512x512x48_d3 : Shape.Concatenates [S4x512x512x12, S4x512x512x12, S4x512x512x12, S4x512x512x12] S4x512x512x48 3
  bcast_S12_S1x1x1x12_3 : S12.BroadcastsInDim S1x1x1x12 (![3] : Fin 1 → Fin S1x1x1x12.rank)
  bcast_S1x1x1x12_S4x512x512x12_0_1_2_3 : S1x1x1x12.BroadcastsInDim S4x512x512x12 (![0, 1, 2, 3] : Fin 4 → Fin S4x512x512x12.rank)
  bcast_S_S4x512x512x12 : S_.BroadcastsInDim S4x512x512x12 (![] : Fin 0 → Fin S4x512x512x12.rank)
  transposes_S4x512x512x12_S4x12x512x512_0_3_1_2 : S4x512x512x12.Transposes [0, 3, 1, 2] S4x12x512x512
  gather_S1025x12_S4x512x512x1_S4x512x512x12_3_0_n_n_0_3_112_wf : GatherDims.WF S1025x12 S4x512x512x1 S4x512x512x12 [3] [0] [] [0] [] 3 ![1, 12]
  dot_S4x512x512x48_S48x12_S4x512x512x12_3_0_012_1_n_n_wf : DotDims.WF S4x512x512x48 S48x12 S4x512x512x12 [3] [0] [0, 1, 2] [1] [] []

variable [Facts₀]

def gather_S1025x12_S4x512x512x1_S4x512x512x12_3_0_n_n_0_3_112 : GatherDims S1025x12 S4x512x512x1 S4x512x512x12 where
  offsetDims := [3]
  collapsedSliceDims := [0]
  operandBatchingDims := []
  startIndicesBatchingDims := []
  startIndexMap := [0]
  indexVectorDim := 3
  sliceSizes := ![1, 12]
  wf := gather_S1025x12_S4x512x512x1_S4x512x512x12_3_0_n_n_0_3_112_wf
def dot_S4x512x512x48_S48x12_S4x512x512x12_3_0_012_1_n_n : DotDims S4x512x512x48 S48x12 S4x512x512x12 where
  lhsContracting := [3]
  rhsContracting := [0]
  lhsNonContracting := [0, 1, 2]
  rhsNonContracting := [1]
  lhsBatch := []
  rhsBatch := []
  wf := dot_S4x512x512x48_S48x12_S4x512x512x12_3_0_012_1_n_n_wf

class Facts : Prop extends Facts₀ where

variable [Facts]
-- ==== Proof.KernelBlocks.lean ====
/-
  The kernel's result array from the arrays its grid reads.

  The grid has 4 × 4 × 1 points `(bi, ti, 0)`. At a point the body loads, from each of the four looked-up arrays
  `A_w : [12, 4, 512, 512]`, the block of all 12 channels, batch entry `bi`, rows `128·ti … 128·ti+127` and all 512
  columns, and the whole bias column `B : [12, 1]`; it stores to the result `[4, 12, 512, 512]` the block of batch entry
  `bi`, all channels, the same rows and columns, holding at `(bi, h, p, q)`
      max ((((A_0 + A_1) + A_2) + A_3)(h, bi, p, q) + B(h, 0), 0).
  So every block is the restriction of ONE whole-array function, `summed`, which swaps the first two coordinates;
  the 16 blocks tile the result, hence the result array after the run is `summed` of the arrays the region finds.
-/
import proofs.«104792_j31379031064638_2_alg».proof.Proof.Gen.KernelIdeal.Value
import Idealize.ShloMosaic.PureOps.Ideal

noncomputable section

namespace Cert.KernelIdeal.Blocks

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem zero4 : (![0, 0, 0, 0] : Fin 4 → Nat) = fun _ => 0 := funext fun a => by fin_cases a <;> rfl
theorem zero2 : (![0, 0] : Fin 2 → Nat) = fun _ => 0 := funext fun a => by fin_cases a <;> rfl

/-- Result index `(b, h, p, q)` reads the looked-up arrays at `(h, b, p, q)`. -/
abbrev swap01 (i : S4x12x512x512.Idx) : S12x4x512x512.Idx := fun a => match a with
  | ⟨0, _⟩ => ⟨(i 1).val, (i 1).isLt⟩
  | ⟨1, _⟩ => ⟨(i 0).val, (i 0).isLt⟩
  | ⟨2, _⟩ => ⟨(i 2).val, (i 2).isLt⟩
  | ⟨3, _⟩ => ⟨(i 3).val, (i 3).isLt⟩

/-- … and the bias column at `(h, 0)`. -/
abbrev chan (i : S4x12x512x512.Idx) : S12x1.Idx := fun a => match a with
  | ⟨0, _⟩ => ⟨(i 1).val, (i 1).isLt⟩
  | ⟨1, _⟩ => ⟨0, Nat.one_pos⟩

/-- The whole result as one function of the four looked-up arrays and the bias column. -/
def summed (A0 A1 A2 A3 : S12x4x512x512.Idx → EReal) (B : S12x1.Idx → EReal) : S4x12x512x512.Idx → EReal :=
  fun i => max ((((A0 (swap01 i) + A1 (swap01 i)) + A2 (swap01 i)) + A3 (swap01 i)) + B (chan i))
    (Ideal.ofBits .f32 0x00000000#32)

/-- What the body's one store leaves in the output block, from the loaded blocks as variables: at block index `y` the
    four loads at `(y₁, 0, y₂, y₃)` added left to right, the bias column at `(y₁, 0)`, and the maximum with zero
    (a change of float format is the identity on extended reals). -/
theorem block_eq (P0 P1 P2 P3 : Vec Ideal S12x1x128x512 .bf16) (P4 : Vec Ideal S12x1 .f32) (y : S1x12x128x512.Idx) :
    out0_5 P0 P1 P2 P3 P4 y
      = max ((((P0 (Value.ix5_0 y) + P1 (Value.ix5_1 y)) + P2 (Value.ix5_2 y)) + P3 (Value.ix5_3 y)) + P4 (Value.ix5_4 y))
          (Ideal.ofBits .f32 0x00000000#32) := by
  unfold out0_5
  simp only [View.ld_unit_zero (S := S12x1x128x512) zero4, View.ld_unit_zero (S := S12x1) zero2]
  exact Value.canon5_eq P0 P1 P2 P3 P4 y

/-- The printed index maps over the 16 grid points: every input block moves with the output block (first two block
    coordinates swapped, the channel coordinate always 0), and the bias column's block never moves. -/
theorem idx_facts : ∀ t : Fin cfg0.N,
    win0_0.index t (0 : Fin 4) = 0 ∧ win0_0.index t (1 : Fin 4) = win0_5.index t (0 : Fin 4)
    ∧ win0_0.index t (2 : Fin 4) = win0_5.index t (2 : Fin 4) ∧ win0_0.index t (3 : Fin 4) = win0_5.index t (3 : Fin 4)
    ∧ win0_1.index t (0 : Fin 4) = 0 ∧ win0_1.index t (1 : Fin 4) = win0_5.index t (0 : Fin 4)
    ∧ win0_1.index t (2 : Fin 4) = win0_5.index t (2 : Fin 4) ∧ win0_1.index t (3 : Fin 4) = win0_5.index t (3 : Fin 4)
    ∧ win0_2.index t (0 : Fin 4) = 0 ∧ win0_2.index t (1 : Fin 4) = win0_5.index t (0 : Fin 4)
    ∧ win0_2.index t (2 : Fin 4) = win0_5.index t (2 : Fin 4) ∧ win0_2.index t (3 : Fin 4) = win0_5.index t (3 : Fin 4)
    ∧ win0_3.index t (0 : Fin 4) = 0 ∧ win0_3.index t (1 : Fin 4) = win0_5.index t (0 : Fin 4)
    ∧ win0_3.index t (2 : Fin 4) = win0_5.index t (2 : Fin 4) ∧ win0_3.index t (3 : Fin 4) = win0_5.index t (3 : Fin 4)
    ∧ win0_4.index t (0 : Fin 2) = 0 ∧ win0_4.index t (1 : Fin 2) = 0
    ∧ win0_5.index t (0 : Fin 4) ≤ 3 ∧ win0_5.index t (1 : Fin 4) = 0
    ∧ win0_5.index t (2 : Fin 4) ≤ 3 ∧ win0_5.index t (3 : Fin 4) = 0 :=
  (by decide +kernel : ∀ t : Fin grid0.N, _)

/-- Every (batch entry, row tile) pair is some grid point's output block. -/
theorem idx_onto : ∀ (q0 : Fin 4) (q2 : Fin 4), ∃ t : Fin cfg0.N, win0_5.index t = ![q0.val, 0, q2.val, 0] :=
  (by decide +kernel : ∀ (q0 : Fin 4) (q2 : Fin 4), ∃ t : Fin grid0.N, win0_5.index t = ![q0.val, 0, q2.val, 0])

set_option maxHeartbeats 2000000 in
/-- What point `t` writes back is block `t` of `summed` of the arrays the region finds. -/
theorem flushed_eq (c : Dev nD) (t : Fin cfg0.N) :
    (dats m 0 c).flushed 5 t = ((cfg0.win 5).blk t).view.read (Elt Ideal)
      (summed (V m c main_v50) (V m c main_v57) (V m c main_v64) (V m c main_v71) (V m c main_v72)) := by
  rw [Value.flushed5]
  obtain ⟨a00, a01, a02, a03, a10, a11, a12, a13, a20, a21, a22, a23, a30, a31, a32, a33, b0, b1, o0, o1, o2, o3⟩ := idx_facts t
  funext y
  have hy0 : (y 0).val < 1 := (y 0).isLt
  have hy1 : (y 1).val < 12 := (y 1).isLt
  have hy2 : (y 2).val < 128 := (y 2).isLt
  have hy3 : (y 3).val < 512 := (y 3).isLt
  show out0_5 (iblk m c 0 t) (iblk m c 1 t) (iblk m c 2 t) (iblk m c 3 t) (iblk m c 4 t) y = _
  refine (block_eq (iblk m c 0 t) (iblk m c 1 t) (iblk m c 2 t) (iblk m c 3 t) (iblk m c 4 t) y).trans ?_
  have h0 : ((cfg0.win 0).blk t).view.emb (Value.ix5_0 y) = swap01 (((cfg0.win 5).blk t).view.emb y) := by
    funext a; apply Fin.ext
    match a with
    | ⟨0, _⟩ => show win0_0.index t (0 : Fin 4) * 12 + 1 * (y 1).val = win0_5.index t (1 : Fin 4) * 12 + 1 * (y 1).val; omega
    | ⟨1, _⟩ => show win0_0.index t (1 : Fin 4) * 1 + 1 * 0 = win0_5.index t (0 : Fin 4) * 1 + 1 * (y 0).val; omega
    | ⟨2, _⟩ => show win0_0.index t (2 : Fin 4) * 128 + 1 * (y 2).val = win0_5.index t (2 : Fin 4) * 128 + 1 * (y 2).val; omega
    | ⟨3, _⟩ => show win0_0.index t (3 : Fin 4) * 512 + 1 * (y 3).val = win0_5.index t (3 : Fin 4) * 512 + 1 * (y 3).val; omega
  have h1 : ((cfg0.win 1).blk t).view.emb (Value.ix5_1 y) = swap01 (((cfg0.win 5).blk t).view.emb y) := by
    funext a; apply Fin.ext
    match a with
    | ⟨0, _⟩ => show win0_1.index t (0 : Fin 4) * 12 + 1 * (y 1).val = win0_5.index t (1 : Fin 4) * 12 + 1 * (y 1).val; omega
    | ⟨1, _⟩ => show win0_1.index t (1 : Fin 4) * 1 + 1 * 0 = win0_5.index t (0 : Fin 4) * 1 + 1 * (y 0).val; omega
    | ⟨2, _⟩ => show win0_1.index t (2 : Fin 4) * 128 + 1 * (y 2).val = win0_5.index t (2 : Fin 4) * 128 + 1 * (y 2).val; omega
    | ⟨3, _⟩ => show win0_1.index t (3 : Fin 4) * 512 + 1 * (y 3).val = win0_5.index t (3 : Fin 4) * 512 + 1 * (y 3).val; omega
  have h2 : ((cfg0.win 2).blk t).view.emb (Value.ix5_2 y) = swap01 (((cfg0.win 5).blk t).view.emb y) := by
    funext a; apply Fin.ext
    match a with
    | ⟨0, _⟩ => show win0_2.index t (0 : Fin 4) * 12 + 1 * (y 1).val = win0_5.index t (1 : Fin 4) * 12 + 1 * (y 1).val; omega
    | ⟨1, _⟩ => show win0_2.index t (1 : Fin 4) * 1 + 1 * 0 = win0_5.index t (0 : Fin 4) * 1 + 1 * (y 0).val; omega
    | ⟨2, _⟩ => show win0_2.index t (2 : Fin 4) * 128 + 1 * (y 2).val = win0_5.index t (2 : Fin 4) * 128 + 1 * (y 2).val; omega
    | ⟨3, _⟩ => show win0_2.index t (3 : Fin 4) * 512 + 1 * (y 3).val = win0_5.index t (3 : Fin 4) * 512 + 1 * (y 3).val; omega
  have h3 : ((cfg0.win 3).blk t).view.emb (Value.ix5_3 y) = swap01 (((cfg0.win 5).blk t).view.emb y) := by
    funext a; apply Fin.ext
    match a with
    | ⟨0, _⟩ => show win0_3.index t (0 : Fin 4) * 12 + 1 * (y 1).val = win0_5.index t (1 : Fin 4) * 12 + 1 * (y 1).val; omega
    | ⟨1, _⟩ => show win0_3.index t (1 : Fin 4) * 1 + 1 * 0 = win0_5.index t (0 : Fin 4) * 1 + 1 * (y 0).val; omega
    | ⟨2, _⟩ => show win0_3.index t (2 : Fin 4) * 128 + 1 * (y 2).val = win0_5.index t (2 : Fin 4) * 128 + 1 * (y 2).val; omega
    | ⟨3, _⟩ => show win0_3.index t (3 : Fin 4) * 512 + 1 * (y 3).val = win0_5.index t (3 : Fin 4) * 512 + 1 * (y 3).val; omega
  have h4 : ((cfg0.win 4).blk t).view.emb (Value.ix5_4 y) = chan (((cfg0.win 5).blk t).view.emb y) := by
    funext a; apply Fin.ext
    match a with
    | ⟨0, _⟩ => show win0_4.index t (0 : Fin 2) * 12 + 1 * (y 1).val = win0_5.index t (1 : Fin 4) * 12 + 1 * (y 1).val; omega
    | ⟨1, _⟩ => show win0_4.index t (1 : Fin 2) * 1 + 1 * 0 = 0; omega
  have key : ∀ (A0 A1 A2 A3 : S12x4x512x512.Idx → EReal) (B : S12x1.Idx → EReal),
      max ((((A0 (((cfg0.win 0).blk t).view.emb (Value.ix5_0 y)) + A1 (((cfg0.win 1).blk t).view.emb (Value.ix5_1 y)))
        + A2 (((cfg0.win 2).blk t).view.emb (Value.ix5_2 y))) + A3 (((cfg0.win 3).blk t).view.emb (Value.ix5_3 y)))
        + B (((cfg0.win 4).blk t).view.emb (Value.ix5_4 y))) (Ideal.ofBits .f32 0x00000000#32)
      = summed A0 A1 A2 A3 B (((cfg0.win 5).blk t).view.emb y) := by
    intro A0 A1 A2 A3 B
    rw [h0, h1, h2, h3, h4]
    rfl
  exact key (V m c main_v50) (V m c main_v57) (V m c main_v64) (V m c main_v71) (V m c main_v72)

/-- An index of the result is in point `t`'s block iff each coordinate is in the block's range on its axis. -/
theorem mem_blk (t : Fin cfg0.N) (i : S4x12x512x512.Idx) :
    i ∈ ((cfg0.win 5).blk t).view.set ↔ ∀ a : Fin 4, win0_5.index t a * S1x12x128x512.size a ≤ (i a).val
      ∧ (i a).val < win0_5.index t a * S1x12x128x512.size a + S1x12x128x512.size a := by
  show i ∈ ((View.whole main_v73).slice (win0_5.rect t)).set ↔ _
  rw [View.set_slice_whole, Rect.mem_set_unit]
  exact Iff.rfl

/-- The 16 blocks cover the result: index `(b, h, p, q)` lies in the block of the point with batch entry `b` and row
    tile `p / 128`. -/
theorem cover (i : S4x12x512x512.Idx) :
    ∃ t : Fin cfg0.N, (cfg0.win 5).flush t = true ∧ i ∈ ((cfg0.win 5).blk t).view.set := by
  have hi0 : (i 0).val < 4 := (i 0).isLt
  have hi1 : (i 1).val < 12 := (i 1).isLt
  have hi2 : (i 2).val < 512 := (i 2).isLt
  have hi3 : (i 3).val < 512 := (i 3).isLt
  obtain ⟨t, ht⟩ := idx_onto ⟨(i 0).val, by omega⟩ ⟨(i 2).val / 128, by omega⟩
  have q0 : win0_5.index t (0 : Fin 4) = (i 0).val := congrFun ht 0
  have q1 : win0_5.index t (1 : Fin 4) = 0 := congrFun ht 1
  have q2 : win0_5.index t (2 : Fin 4) = (i 2).val / 128 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 12 ≤ (i 1).val ∧ (i 1).val < win0_5.index t (1 : Fin 4) * 12 + 12; omega
  | ⟨2, _⟩ => show win0_5.index t (2 : Fin 4) * 128 ≤ (i 2).val ∧ (i 2).val < win0_5.index t (2 : Fin 4) * 128 + 128; omega
  | ⟨3, _⟩ => show win0_5.index t (3 : Fin 4) * 512 ≤ (i 3).val ∧ (i 3).val < win0_5.index t (3 : Fin 4) * 512 + 512; omega

/-- So the result array after the run is `summed` of the arrays the region finds. -/
theorem final (c : Dev nD) : (dats m 0 c).arrAt 5 cfg0.N
    = summed (V m c main_v50) (V m c main_v57) (V m c main_v64) (V m c main_v71) (V m c main_v72) :=
  (dats m 0 c).arrAt_eq_of_cover 5
    (summed (V m c main_v50) (V m c main_v57) (V m c main_v64) (V m c main_v71) (V m c main_v72))
    (fun t _ => flushed_eq m c t) cover

/-- The kernel's run with the result array named: every weakly fair execution terminates with the result at `summed`
    of the looked-up arrays and the bias column as the region finds them, the arguments unchanged. -/
theorem run : θ_run defs (onTc (τ := τ) (main (F := Ideal))) ⟨m, fun _ => 0, ρ⟩ fun r => ∀ c : Dev nD,
      r.2.mem ((c : Thread nD τ).loc main_v73)
        = summed (V m c main_v50) (V m c main_v57) (V m c main_v64) (V m c main_v71) (V m c main_v72)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Blocks

end
-- ==== Proof.FusedSpec.lean ====
/-
  Pairwise relative-position embeddings fused by one linear layer, as a function of the argument arrays.

  For a batch entry `b`, a pair of positions `(p, q)` and an output channel `h` the result is
      relu ( Σ_t Σ_{k<12} pe_t[ r_t(b,p,q), k ] · W[ 12 t + k, h ]  +  bias[h] ),      t ∈ {ss, se, es, ee},
  where `r_t(b,p,q)` is the row of table `t` that the pair selects: the start index read as a signed integer and
  clamped into the table, `[0, 1024]`. Two arrangements of this sum occur: the four 12-term sums added left to right
  (project each table through its 12×12 slice of `W`, then look rows up), and one 48-term sum over the four looked-up
  rows laid end to end (look rows up, concatenate, project through all of `W`). They are the same element of the
  extended reals because addition there is commutative and associative — no finiteness is used: `sum_four_blocks`.
-/
import Idealize.ShloMosaic.PureOps.Ideal
import Idealize.ShloMosaic.Lib.ValueIdx

noncomputable section

open scoped BigOperators
open Idealize.ShloMosaic Idealize.ShloMosaic.ValueIdx

namespace Cert.PosFusion

/-- The table row a start index selects: the word read as a signed integer, clamped into `[0, 1024]`. -/
def row (w : BitVec 32) : Fin 1025 := ⟨min w.toInt.toNat 1024, by omega⟩

/-- Row `k` of the `t`-th 12-row band of the weights (`off = 12 t`). -/
def band (off : Nat) (hoff : off + 12 ≤ 48) (k : Fin 12) : Fin 48 := ⟨off + k.val, by have := k.isLt; omega⟩

/-- One table's contribution to channel `h`: row `r` of the table against the table's band of the weights. -/
def proj (pe : (⟨2, ![1025, 12]⟩ : Shape).Idx → EReal) (W : (⟨2, ![48, 12]⟩ : Shape).Idx → EReal)
    (off : Nat) (hoff : off + 12 ≤ 48) (r : Fin 1025) (h : Fin 12) : EReal :=
  ∑ k : Fin 12, pe (ix2 r k) * W (ix2 (band off hoff k) h)

/-- The fused embedding at batch entry `b`, channel `h`, position pair `(p, q)`: the four contributions added left to
    right, the bias, and the rectifier (the maximum with the zero word's value). -/
def fusedAt (Iss Ise Ies Iee : IVec ⟨4, ![4, 512, 512, 1]⟩ 32)
    (pss pse pes pee : (⟨2, ![1025, 12]⟩ : Shape).Idx → EReal) (W : (⟨2, ![48, 12]⟩ : Shape).Idx → EReal)
    (bias : (⟨1, ![12]⟩ : Shape).Idx → EReal) (b : Fin 4) (h : Fin 12) (p q : Fin 512) : EReal :=
  max ((((proj pss W 0 (by omega) (row (Iss (ix4 b p q 0))) h
        + proj pse W 12 (by omega) (row (Ise (ix4 b p q 0))) h)
        + proj pes W 24 (by omega) (row (Ies (ix4 b p q 0))) h)
        + proj pee W 36 (by omega) (row (Iee (ix4 b p q 0))) h)
        + bias (ix1 h))
    (Ideal.ofBits .f32 0x00000000#32)

/-- The whole result array `[4, 12, 512, 512]`, index by index. -/
def fused (Iss Ise Ies Iee : IVec ⟨4, ![4, 512, 512, 1]⟩ 32)
    (pss pse pes pee : (⟨2, ![1025, 12]⟩ : Shape).Idx → EReal) (W : (⟨2, ![48, 12]⟩ : Shape).Idx → EReal)
    (bias : (⟨1, ![12]⟩ : Shape).Idx → EReal) : (⟨4, ![4, 12, 512, 512]⟩ : Shape).Idx → EReal :=
  fun i => fusedAt Iss Ise Ies Iee pss pse pes pee W bias (i 0) (i 1) (i 2) (i 3)

/-- A sum over 48 terms is the sum of its four consecutive 12-term bands, added left to right: reindexing and
    associativity only, in any commutative monoid. -/
theorem sum_four_blocks {M : Type*} [AddCommMonoid M] (f : Fin 48 → M) :
    ∑ k, f k = ((∑ j : Fin 12, f (band 0 (by omega) j) + ∑ j : Fin 12, f (band 12 (by omega) j))
      + ∑ j : Fin 12, f (band 24 (by omega) j)) + ∑ j : Fin 12, f (band 36 (by omega) j) := by
  have e1 : ∑ k : Fin 48, f k
      = ∑ k : Fin 36, f ⟨k.val, by have := k.isLt; omega⟩ + ∑ j : Fin 12, f (band 36 (by omega) j) :=
    Fin.sum_univ_add (a := 36) (b := 12) f
  have e2 : ∑ k : Fin 36, f ⟨k.val, by have := k.isLt; omega⟩
      = ∑ k : Fin 24, f ⟨k.val, by have := k.isLt; omega⟩ + ∑ j : Fin 12, f (band 24 (by omega) j) :=
    Fin.sum_univ_add (a := 24) (b := 12) fun k : Fin 36 => f ⟨k.val, by have := k.isLt; omega⟩
  have e3 : ∑ k : Fin 24, f ⟨k.val, by have := k.isLt; omega⟩
      = ∑ j : Fin 12, f (band 0 (by omega) j) + ∑ j : Fin 12, f (band 12 (by omega) j) := by
    refine (Fin.sum_univ_add (a := 12) (b := 12) fun k : Fin 24 => f ⟨k.val, by have := k.isLt; omega⟩).trans ?_
    congr 1
  rw [e1, e2, e3]

end Cert.PosFusion

end
-- ==== Proof.KernelHost.lean ====
/-
  The arrays the kernel's grid reads, as the host operations before it leave them, read at an index.

  Each of the four looked-up arrays `A_t : [12, 4, 512, 512]` is a column lookup in a projected table: the table
  `pe_t : [1025, 12]` times the 12×12 band `W[12 t … 12 t + 11, :]` of the weights, narrowed to bf16 (the identity on
  extended reals), transposed to `[12, 1025]`, and read at column `r_t(b, p, q)` — the start index read as a signed
  integer and clamped into `[0, 1024]`. So
      A_t (h, b, p, q) = Σ_{k<12} pe_t[r_t(b,p,q), k] · W[12 t + k, h],
  the contribution `Cert.PosFusion.proj` of table `t`. The bias column `[12, 1]` is the bias vector reshaped.
-/
import proofs.«104792_j31379031064638_2_alg».proof.Proof.Gen.KernelIdeal.Frame
import proofs.«104792_j31379031064638_2_alg».proof.Proof.FusedSpec
import Idealize.ShloMosaic.Lib.Pipeline.Value
import Idealize.ShloMosaic.Lib.ValueIdx
import Idealize.ShloMosaic.PureOps.Ideal.Laws
import Idealize.ShloMosaic.Lib.StableHlo.Run

noncomputable section

namespace Cert.KernelIdeal.HostArrays

open Cert.KernelIdeal Cert.KernelIdeal.Gen Idealize.ShloMosaic Idealize.ShloMosaic.TcCoe Idealize.SL.Sem
open Idealize.ShloMosaic.StableHlo Idealize.ShloMosaic.ValueIdx Cert.PosFusion
open scoped BigOperators

/-- The column lookup's dimension numbers: operand `[12, 1025]`, start indices `[4, 512, 512, 1]`, result `[12, 4, 512, 512]`. -/
abbrev colsDims : GatherDims S12x1025 S4x512x512x1 S12x4x512x512 := gather_S12x1025_S4x512x512x1_S12x4x512x512_0_1_n_n_1_3_121
/-- The projection's dimension numbers: `[1025, 12] · [12, 12]`, one contracted axis. -/
abbrev projDims : DotDims S1025x12 S12x12 S1025x12 := dot_S1025x12_S12x12_S1025x12_1_0_0_1_n_n

/-- A COLUMN LOOKUP READ AT AN INDEX: result element `(h, b, p, q)` is the table at row `h` and column `idx[b, p, q, 0]`,
    read signed and clamped into `[0, 1024]`. -/
theorem gather_cols_apply {α : Type} (x : S12x1025.Idx → α) (idx : IVec S4x512x512x1 32) (h : Fin 12) (b : Fin 4) (p q : Fin 512) :
    Host.gather colsDims x idx (ix4 h b p q) = x (ix2 h (row (idx (ix4 b p q 0)))) := by
  unfold Host.gather
  congr 1
  funext a
  refine Fin.ext ?_
  match a with
  | ⟨0, _⟩ =>
    show colsDims.start (ix4 h b p q) idx ⟨0, by decide⟩ + colsDims.batchCoord (ix4 h b p q) ⟨0, by decide⟩
      + colsDims.offCoord (ix4 h b p q) ⟨0, by decide⟩ = h.val
    rw [GatherDims.batchCoord_eq_zero _ _ _ List.not_mem_nil]
    unfold GatherDims.start
    rw [dif_neg (show (⟨0, by decide⟩ : Fin S12x1025.rank) ∉ colsDims.startIndexMap by decide)]
    unfold GatherDims.offCoord
    rw [dif_pos (show (⟨0, by decide⟩ : Fin S12x1025.rank) ∈ colsDims.sKept by decide)]
    simp only [Nat.zero_add, Nat.add_zero]
    rfl
  | ⟨1, _⟩ =>
    show colsDims.start (ix4 h b p q) idx ⟨1, by decide⟩ + colsDims.batchCoord (ix4 h b p q) ⟨1, by decide⟩
      + colsDims.offCoord (ix4 h b p q) ⟨1, by decide⟩ = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (⟨1, by decide⟩ : Fin S12x1025.rank) ∈ colsDims.startIndexMap from List.mem_singleton.mpr rfl)]
    have hsi : colsDims.siIdx (ix4 h b p q) ⟨List.idxOf (⟨1, by decide⟩ : Fin S12x1025.rank) colsDims.startIndexMap,
        List.idxOf_lt_length_iff.2 (List.mem_singleton.mpr rfl)⟩ = ix4 b p q 0 := by
      funext d; refine Fin.ext ?_
      match d with
      | ⟨0, _⟩ => rfl
      | ⟨1, _⟩ => rfl
      | ⟨2, _⟩ => rfl
      | ⟨3, _⟩ => rfl
    rw [hsi]
    rfl

/-- The projection's left operand is read at the result's row … -/
theorem lhs_row (i : S1025x12.Idx) (q : projDims.contr.Idx) : (projDims.lhsIdx i q 0).val = (i 0).val := by
  unfold DotDims.lhsIdx
  rw [dif_neg (show ¬(0 : Fin S1025x12.rank) ∈ projDims.lhsBatch by decide), dif_pos (show (0 : Fin S1025x12.rank) ∈ projDims.lhsNonContracting by decide)]
  rfl
/-- … and its right operand at the result's column. -/
theorem rhs_col (i : S1025x12.Idx) (q : projDims.contr.Idx) : (projDims.rhsIdx i q 1).val = (i 1).val := by
  unfold DotDims.rhsIdx
  rw [dif_neg (show ¬(1 : Fin S12x12.rank) ∈ projDims.rhsBatch by decide), dif_pos (show (1 : Fin S12x12.rank) ∈ projDims.rhsNonContracting by decide)]
  rfl

/-- A PROJECTED TABLE READ AT AN INDEX: the table times the band of the weights starting at row `off`, narrowed and
    transposed, at `(h, r)` is the 12-term sum of row `r` of the table against column `h` of the band. -/
theorem projected_apply (pe : S1025x12.Idx → EReal) (W : S48x12.Idx → EReal) (off : Nat) (hoff : off + 12 ≤ 48)
    (hS : S48x12.Slices ![off, 0] S12x12) (h : Fin 12) (r : Fin 1025) :
    transpose S12x1025 [1, 0] (truncf (F := Ideal) .bf16 (Host.dotGeneral (F := Ideal) (φ₁ := .f32) (φ₂ := .f32) projDims none pe (extractStridedSlice S12x12 ![off, 0] W hS)) bitsLt_bf16_f32)
        transposes_S1025x12_S12x1025_1_0 (ix2 h r)
      = proj pe W off hoff r h := by
  refine (transpose_apply [1, 0] _ transposes_S1025x12_S12x1025_1_0 (ix2 h r) (ix2 r h) (fun d => match d with
    | ⟨0, _⟩ => rfl
    | ⟨1, _⟩ => rfl)).trans ?_
  show Host.dotGeneral (F := Ideal) (φ₁ := .f32) (φ₂ := .f32) projDims none pe (extractStridedSlice S12x12 ![off, 0] W hS) (ix2 r h) = _
  simp only [Host.dotGeneral]
  rw [Ideal.dotGeneral_apply, ← Equiv.sum_comp (contrEquiv1 projDims 12 rfl rfl).symm]
  unfold proj
  refine Finset.sum_congr rfl fun k _ => ?_
  have hk := contrEquiv1_symm_val projDims 12 rfl rfl k
  have el : projDims.lhsIdx (ix2 r h) ((contrEquiv1 projDims 12 rfl rfl).symm k) = ix2 r k := funext fun a => Fin.ext (by
    match a with
    | ⟨0, _⟩ => exact lhs_row _ _
    | ⟨1, _⟩ => exact (projDims.lhsIdx_val_of_single rfl _ _).trans hk)
  have er : projDims.rhsIdx (ix2 r h) ((contrEquiv1 projDims 12 rfl rfl).symm k) = ix2 k h := funext fun a => Fin.ext (by
    match a with
    | ⟨0, _⟩ => exact (projDims.rhsIdx_val_of_single rfl _ _).trans hk
    | ⟨1, _⟩ => exact rhs_col _ _)
  rw [el, er]
  congr 1
  exact extractStridedSlice_apply ![off, 0] W hS (ix2 k h) (ix2 (band off hoff k) h) (fun a => match a with
    | ⟨0, _⟩ => rfl
    | ⟨1, _⟩ => by show h.val = 0 + h.val; omega)

variable (m : (ℓ : Loc nD τ sig) → Buf (Elt Ideal) ℓ)

/-! ## The arrays as the region finds them -/

set_option maxRecDepth 8192 in
set_option maxHeartbeats 40000000 in
/-- Looked-up array 0: the `ss` table projected through band 0 of the weights, read at the `ss` start indices. -/
theorem V_ss (c : Dev nD) : (V m c main_v50 : S12x4x512x512.Idx → EReal)
    = Host.gather colsDims (transpose S12x1025 [1, 0] (truncf (F := Ideal) .bf16 (Host.dotGeneral (F := Ideal) (φ₁ := .f32) (φ₂ := .f32) projDims none (m ((c : Thread nD τ).loc main_arg2))
        (extractStridedSlice S12x12 ![0, 0] (m ((c : Thread nD τ).loc main_arg6)) slices_S48x12_S12x12_0_0)) bitsLt_bf16_f32) transposes_S1025x12_S12x1025_1_0)
        (V m c main_v49) := by
  dsimp only [V, hostOps0]
  after_results_simp

set_option maxRecDepth 8192 in
set_option maxHeartbeats 40000000 in
/-- Looked-up array 1: the `se` table projected through band 1, read at the `se` start indices. -/
theorem V_se (c : Dev nD) : (V m c main_v57 : S12x4x512x512.Idx → EReal)
    = Host.gather colsDims (transpose S12x1025 [1, 0] (truncf (F := Ideal) .bf16 (Host.dotGeneral (F := Ideal) (φ₁ := .f32) (φ₂ := .f32) projDims none (m ((c : Thread nD τ).loc main_arg3))
        (extractStridedSlice S12x12 ![12, 0] (m ((c : Thread nD τ).loc main_arg6)) slices_S48x12_S12x12_12_0)) bitsLt_bf16_f32) transposes_S1025x12_S12x1025_1_0)
        (V m c main_v56) := by
  dsimp only [V, hostOps0]
  after_results_simp

set_option maxRecDepth 8192 in
set_option maxHeartbeats 40000000 in
/-- Looked-up array 2: the `es` table projected through band 2, read at the `es` start indices. -/
theorem V_es (c : Dev nD) : (V m c main_v64 : S12x4x512x512.Idx → EReal)
    = Host.gather colsDims (transpose S12x1025 [1, 0] (truncf (F := Ideal) .bf16 (Host.dotGeneral (F := Ideal) (φ₁ := .f32) (φ₂ := .f32) projDims none (m ((c : Thread nD τ).loc main_arg4))
        (extractStridedSlice S12x12 ![24, 0] (m ((c : Thread nD τ).loc main_arg6)) slices_S48x12_S12x12_24_0)) bitsLt_bf16_f32) transposes_S1025x12_S12x1025_1_0)
        (V m c main_v63) := by
  dsimp only [V, hostOps0]
  after_results_simp

set_option maxRecDepth 8192 in
set_option maxHeartbeats 40000000 in
/-- Looked-up array 3: the `ee` table projected through band 3, read at the `ee` start indices. -/
theorem V_ee (c : Dev nD) : (V m c main_v71 : S12x4x512x512.Idx → EReal)
    = Host.gather colsDims (transpose S12x1025 [1, 0] (truncf (F := Ideal) .bf16 (Host.dotGeneral (F := Ideal) (φ₁ := .f32) (φ₂ := .f32) projDims none (m ((c : Thread nD τ).loc main_arg5))
        (extractStridedSlice S12x12 ![36, 0] (m ((c : Thread nD τ).loc main_arg6)) slices_S48x12_S12x12_36_0)) bitsLt_bf16_f32) transposes_S1025x12_S12x1025_1_0)
        (V m c main_v70) := by
  dsimp only [V, hostOps0]
  after_results_simp

set_option maxRecDepth 8192 in
set_option maxHeartbeats 40000000 in
/-- The bias column is the bias vector reshaped. -/
theorem V_bias (c : Dev nD) : (V m c main_v72 : S12x1.Idx → EReal)
    = shapeCast S12x1 (m ((c : Thread nD τ).loc main_arg7)) shapeCasts_S12_S12x1 := by
  dsimp only [V, hostOps0]
  after_results_simp
  rfl

/-! ## … read at an index -/

theorem A_ss_apply (c : Dev nD) (h : Fin 12) (b : Fin 4) (p q : Fin 512) :
    (V m c main_v50 : S12x4x512x512.Idx → EReal) (ix4 h b p q)
      = proj (m ((c : Thread nD τ).loc main_arg2)) (m ((c : Thread nD τ).loc main_arg6)) 0 (by omega)
          (row ((V m c main_v49 : IVec S4x512x512x1 32) (ix4 b p q 0))) h := by
  rw [V_ss, gather_cols_apply]
  exact projected_apply _ _ 0 (by omega) slices_S48x12_S12x12_0_0 h _

theorem A_se_apply (c : Dev nD) (h : Fin 12) (b : Fin 4) (p q : Fin 512) :
    (V m c main_v57 : S12x4x512x512.Idx → EReal) (ix4 h b p q)
      = proj (m ((c : Thread nD τ).loc main_arg3)) (m ((c : Thread nD τ).loc main_arg6)) 12 (by omega)
          (row ((V m c main_v56 : IVec S4x512x512x1 32) (ix4 b p q 0))) h := by
  rw [V_se, gather_cols_apply]
  exact projected_apply _ _ 12 (by omega) slices_S48x12_S12x12_12_0 h _

theorem A_es_apply (c : Dev nD) (h : Fin 12) (b : Fin 4) (p q : Fin 512) :
    (V m c main_v64 : S12x4x512x512.Idx → EReal) (ix4 h b p q)
      = proj (m ((c : Thread nD τ).loc main_arg4)) (m ((c : Thread nD τ).loc main_arg6)) 24 (by omega)
          (row ((V m c main_v63 : IVec S4x512x512x1 32) (ix4 b p q 0))) h := by
  rw [V_es, gather_cols_apply]
  exact projected_apply _ _ 24 (by omega) slices_S48x12_S12x12_24_0 h _

theorem A_ee_apply (c : Dev nD) (h : Fin 12) (b : Fin 4) (p q : Fin 512) :
    (V m c main_v71 : S12x4x512x512.Idx → EReal) (ix4 h b p q)
      = proj (m ((c : Thread nD τ).loc main_arg5)) (m ((c : Thread nD τ).loc main_arg6)) 36 (by omega)
          (row ((V m c main_v70 : IVec S4x512x512x1 32) (ix4 b p q 0))) h := by
  rw [V_ee, gather_cols_apply]
  exact projected_apply _ _ 36 (by omega) slices_S48x12_S12x12_36_0 h _

theorem bias_apply (c : Dev nD) (h : Fin 12) :
    (V m c main_v72 : S12x1.Idx → EReal) (ix2 h 0) = (m ((c : Thread nD τ).loc main_arg7) : S12.Idx → EReal) (ix1 h) := by
  rw [V_bias]
  refine shapeCast_apply _ shapeCasts_S12_S12x1 (ix2 h 0) (ix1 h) ?_
  rw [Shape.rowMajor_val_one, Shape.rowMajor_val_two]
  show h.val = h.val * 1 + 0
  omega

end Cert.KernelIdeal.HostArrays

end
-- ==== Proof.StartIdx.lean ====
/-
  The two programs compute the same four arrays of start indices.

  Both form, for the position vectors `pos_s, pos_e : [4, 512]`, the pairwise differences `x[b, p] - y[b, q] + 512`
  (for `(x, y)` = `(s, s)`, `(s, e)`, `(e, s)`, `(e, e)`), wrap a negative value round by adding the table's
  1025 rows, and give the result a unit last axis: `[4, 512, 512, 1]`. The host operations that do this are the same, one
  after the other, in the kernel's program and in the reference's; so the arrays the kernel's grid finds are the
  reference's own stages, term for term.
-/
import proofs.«104792_j31379031064638_2_alg».proof.Proof.Gen.KernelIdeal.Frame
import proofs.«104792_j31379031064638_2_alg».proof.Proof.Gen.ReferenceIdeal.Read
import Idealize.ShloMosaic.Lib.StableHlo.Run

noncomputable section

namespace Cert.KernelIdeal.StartIdx

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 40000000 in
/-- The `ss` start indices. -/
theorem idx_ss (c : Dev nD) : (V m c main_v49 : IVec S4x512x512x1 32)
    = Cert.ReferenceIdeal.Read.val_main_v33 (F := Ideal) (m ((c : Thread nD τ).loc main_arg0)) := by
  dsimp only [V, hostOps0]
  after_results_simp
  rfl

set_option maxRecDepth 8192 in
set_option maxHeartbeats 40000000 in
/-- The `se` start indices. -/
theorem idx_se (c : Dev nD) : (V m c main_v56 : IVec S4x512x512x1 32)
    = Cert.ReferenceIdeal.Read.val_main_v40 (F := Ideal) (m ((c : Thread nD τ).loc main_arg0)) (m ((c : Thread nD τ).loc main_arg1)) := by
  dsimp only [V, hostOps0]
  after_results_simp
  rfl

set_option maxRecDepth 8192 in
set_option maxHeartbeats 40000000 in
/-- The `es` start indices. -/
theorem idx_es (c : Dev nD) : (V m c main_v63 : IVec S4x512x512x1 32)
    = Cert.ReferenceIdeal.Read.val_main_v47 (F := Ideal) (m ((c : Thread nD τ).loc main_arg0)) (m ((c : Thread nD τ).loc main_arg1)) := by
  dsimp only [V, hostOps0]
  after_results_simp
  rfl

set_option maxRecDepth 8192 in
set_option maxHeartbeats 40000000 in
/-- The `ee` start indices. -/
theorem idx_ee (c : Dev nD) : (V m c main_v70 : IVec S4x512x512x1 32)
    = Cert.ReferenceIdeal.Read.val_main_v54 (F := Ideal) (m ((c : Thread nD τ).loc main_arg1)) := by
  dsimp only [V, hostOps0]
  after_results_simp
  rfl

end Cert.KernelIdeal.StartIdx

end
-- ==== Proof.KernelValue.lean ====
/-
  The kernel computes the fused embedding: its result array after the run is `Cert.PosFusion.fused` of the four
  start-index arrays and the argument arrays.

  The grid leaves `summed` of the four looked-up arrays and the bias column (the blocks tile the result); at
  `(b, h, p, q)` that reads each looked-up array at `(h, b, p, q)`, which is its table's contribution
  `proj pe_t W (12 t) r_t(b,p,q) h`, and the bias column at `(h, 0)`, which is `bias[h]`: the four contributions added
  left to right, the bias, the rectifier — `fused` as it is written. The start indices are the reference's own stages.
-/
import proofs.«104792_j31379031064638_2_alg».proof.Proof.KernelBlocks
import proofs.«104792_j31379031064638_2_alg».proof.Proof.KernelHost
import proofs.«104792_j31379031064638_2_alg».proof.Proof.StartIdx
import proofs.«104792_j31379031064638_2_alg».proof.Proof.FusedSpec

noncomputable section

namespace Cert.KernelIdeal.KernelValue

open Cert.KernelIdeal Cert.KernelIdeal.Gen Idealize.ShloMosaic Idealize.ShloMosaic.TcCoe Idealize.SL.Sem
open Idealize.ShloMosaic.ValueIdx Cert.PosFusion Cert.KernelIdeal.Blocks Cert.KernelIdeal.HostArrays Cert.KernelIdeal.StartIdx

variable (m : (ℓ : Loc nD τ sig) → Buf (Elt Ideal) ℓ) (ρ : Dev nD → PrngReg)

/-- `summed` of the arrays the region finds is `fused` of the start indices the region finds and the arguments. -/
theorem summed_eq (c : Dev nD) :
    summed (V m c main_v50) (V m c main_v57) (V m c main_v64) (V m c main_v71) (V m c main_v72)
      = fused (V m c main_v49) (V m c main_v56) (V m c main_v63) (V m c main_v70)
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  funext i
  obtain ⟨b, h, p, q, rfl⟩ : ∃ (b : Fin 4) (h : Fin 12) (p q : Fin 512), i = ix4 b h p q := ⟨i 0, i 1, i 2, i 3, eq_ix4 i⟩
  have es : swap01 (ix4 b h p q) = ix4 h b p q := by
    funext a; match a with | ⟨0, _⟩ => rfl | ⟨1, _⟩ => rfl | ⟨2, _⟩ => rfl | ⟨3, _⟩ => rfl
  have ec : chan (ix4 b h p q) = ix2 h 0 := by
    funext a; match a with | ⟨0, _⟩ => rfl | ⟨1, _⟩ => rfl
  unfold summed
  rw [es, ec, A_ss_apply, A_se_apply, A_es_apply, A_ee_apply, bias_apply]
  rfl

/-- The same with the start indices named as the reference's stages of the position vectors. -/
theorem result_eq (c : Dev nD) :
    summed (V m c main_v50) (V m c main_v57) (V m c main_v64) (V m c main_v71) (V m c main_v72)
      = fused (Cert.ReferenceIdeal.Read.val_main_v33 (F := Ideal) (m ((c : Thread nD τ).loc main_arg0)))
          (Cert.ReferenceIdeal.Read.val_main_v40 (F := Ideal) (m ((c : Thread nD τ).loc main_arg0)) (m ((c : Thread nD τ).loc main_arg1)))
          (Cert.ReferenceIdeal.Read.val_main_v47 (F := Ideal) (m ((c : Thread nD τ).loc main_arg0)) (m ((c : Thread nD τ).loc main_arg1)))
          (Cert.ReferenceIdeal.Read.val_main_v54 (F := Ideal) (m ((c : Thread nD τ).loc main_arg1)))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [summed_eq, idx_ss, idx_se, idx_es, idx_ee]

/-- THE KERNEL'S RUN: every weakly fair execution terminates with the result array at `fused` of the arguments, the
    arguments unchanged. -/
theorem run : θ_run defs (onTc (τ := τ) (main (F := Ideal))) ⟨m, fun _ => 0, ρ⟩ fun r => ∀ c : Dev nD,
      r.2.mem ((c : Thread nD τ).loc main_v73)
        = fused (Cert.ReferenceIdeal.Read.val_main_v33 (F := Ideal) (m ((c : Thread nD τ).loc main_arg0)))
          (Cert.ReferenceIdeal.Read.val_main_v40 (F := Ideal) (m ((c : Thread nD τ).loc main_arg0)) (m ((c : Thread nD τ).loc main_arg1)))
          (Cert.ReferenceIdeal.Read.val_main_v47 (F := Ideal) (m ((c : Thread nD τ).loc main_arg0)) (m ((c : Thread nD τ).loc main_arg1)))
          (Cert.ReferenceIdeal.Read.val_main_v54 (F := Ideal) (m ((c : Thread nD τ).loc main_arg1)))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (result_eq m c), (h c).2⟩) (Blocks.run m ρ)

end Cert.KernelIdeal.KernelValue

end
-- ==== Proof.RefValue.lean ====
/-
  The reference computes the fused embedding: its result array, read index by index, is `Cert.PosFusion.fused` of the
  four arrays of start indices and the argument arrays.

  At result index `(b, h, p, q)` the reference transposes `relu (pe4 · W + bias)` at `(b, p, q, h)`; the product is the
  48-term sum over the concatenation `pe4 = [pe_ss[r_ss] | pe_se[r_se] | pe_es[r_es] | pe_ee[r_ee]]` along the feature
  axis, each piece a row lookup (the start index read signed and clamped into the table). Splitting the 48-term sum into
  its four bands, band `t` reads piece `t` at feature `k` against row `12 t + k` of `W`: the four contributions of
  `fused`, added left to right.
-/
import proofs.«104792_j31379031064638_2_alg».proof.Proof.Gen.ReferenceIdeal.Read
import proofs.«104792_j31379031064638_2_alg».proof.Proof.FusedSpec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.PosFusion
open scoped BigOperators

/-- The row lookup's dimension numbers: operand `[1025, 12]`, start indices `[4, 512, 512, 1]`, result `[4, 512, 512, 12]`. -/
abbrev rowsDims : GatherDims S1025x12 S4x512x512x1 S4x512x512x12 := gather_S1025x12_S4x512x512x1_S4x512x512x12_3_0_n_n_0_3_112

/-- A ROW LOOKUP READ AT AN INDEX: result element `(b, p, q, k)` is the table at row `idx[b, p, q, 0]` — read signed and
    clamped into `[0, 1024]` — and column `k`. -/
theorem gather_rows_apply {α : Type} (x : S1025x12.Idx → α) (idx : IVec S4x512x512x1 32) (b : Fin 4) (p q : Fin 512) (k : Fin 12) :
    Host.gather rowsDims x idx (ix4 b p q k) = x (ix2 (row (idx (ix4 b p q 0))) k) := by
  unfold Host.gather
  congr 1
  funext a
  refine Fin.ext ?_
  match a with
  | ⟨0, _⟩ =>
    show rowsDims.start (ix4 b p q k) idx ⟨0, by decide⟩ + rowsDims.batchCoord (ix4 b p q k) ⟨0, by decide⟩
      + rowsDims.offCoord (ix4 b p q k) ⟨0, by decide⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin S1025x12.rank) ∈ rowsDims.startIndexMap from List.mem_singleton.mpr rfl)]
    have hsi : rowsDims.siIdx (ix4 b p q k) ⟨List.idxOf (⟨0, by decide⟩ : Fin S1025x12.rank) rowsDims.startIndexMap,
        List.idxOf_lt_length_iff.2 (List.mem_singleton.mpr rfl)⟩ = ix4 b p q 0 := by
      funext d; refine Fin.ext ?_
      match d with
      | ⟨0, _⟩ => rfl
      | ⟨1, _⟩ => rfl
      | ⟨2, _⟩ => rfl
      | ⟨3, _⟩ => rfl
    rw [hsi]
    rfl
  | ⟨1, _⟩ =>
    show rowsDims.start (ix4 b p q k) idx ⟨1, by decide⟩ + rowsDims.batchCoord (ix4 b p q k) ⟨1, by decide⟩
      + rowsDims.offCoord (ix4 b p q k) ⟨1, by decide⟩ = k.val
    rw [GatherDims.batchCoord_eq_zero _ _ _ List.not_mem_nil]
    unfold GatherDims.start
    rw [dif_neg (show (⟨1, by decide⟩ : Fin S1025x12.rank) ∉ rowsDims.startIndexMap by decide)]
    unfold GatherDims.offCoord
    rw [dif_pos (show (⟨1, by decide⟩ : Fin S1025x12.rank) ∈ rowsDims.sKept by decide)]
    simp only [Nat.zero_add, Nat.add_zero]
    rfl

/-- THE CONCATENATION READ IN BAND `t`: feature `12 t + k` of the four pieces laid end to end along the last axis is
    feature `k` of piece `t`. -/
theorem cat_apply (y0 y1 y2 y3 : S4x512x512x12.Idx → EReal) (b : Fin 4) (p q : Fin 512) (k : Fin 12) :
    concatenate S4x512x512x48 3 [⟨S4x512x512x12, y0⟩, ⟨S4x512x512x12, y1⟩, ⟨S4x512x512x12, y2⟩, ⟨S4x512x512x12, y3⟩]
        concatenates_S4x512x512x12_S4x512x512x12_S4x512x512x12_S4x512x512x12_S4x512x512x48_d3 (ix4 b p q (band 0 (by omega) k)) = y0 (ix4 b p q k)
    ∧ concatenate S4x512x512x48 3 [⟨S4x512x512x12, y0⟩, ⟨S4x512x512x12, y1⟩, ⟨S4x512x512x12, y2⟩, ⟨S4x512x512x12, y3⟩]
        concatenates_S4x512x512x12_S4x512x512x12_S4x512x512x12_S4x512x512x12_S4x512x512x48_d3 (ix4 b p q (band 12 (by omega) k)) = y1 (ix4 b p q k)
    ∧ concatenate S4x512x512x48 3 [⟨S4x512x512x12, y0⟩, ⟨S4x512x512x12, y1⟩, ⟨S4x512x512x12, y2⟩, ⟨S4x512x512x12, y3⟩]
        concatenates_S4x512x512x12_S4x512x512x12_S4x512x512x12_S4x512x512x12_S4x512x512x48_d3 (ix4 b p q (band 24 (by omega) k)) = y2 (ix4 b p q k)
    ∧ concatenate S4x512x512x48 3 [⟨S4x512x512x12, y0⟩, ⟨S4x512x512x12, y1⟩, ⟨S4x512x512x12, y2⟩, ⟨S4x512x512x12, y3⟩]
        concatenates_S4x512x512x12_S4x512x512x12_S4x512x512x12_S4x512x512x12_S4x512x512x48_d3 (ix4 b p q (band 36 (by omega) k)) = y3 (ix4 b p q k) := by
  refine ⟨?_, ?_, ?_, ?_⟩
  · refine concatenate_apply_piece (t := S4x512x512x48) (3 : Fin S4x512x512x48.rank)
      [⟨S4x512x512x12, y0⟩, ⟨S4x512x512x12, y1⟩, ⟨S4x512x512x12, y2⟩, ⟨S4x512x512x12, y3⟩]
      concatenates_S4x512x512x12_S4x512x512x12_S4x512x512x12_S4x512x512x12_S4x512x512x48_d3
      (ix4 b p q (band 0 (by omega) k)) 0 (by show (0 : Nat) < 4; omega) S4x512x512x12 y0 rfl rfl 0 ?_ (ix4 b p q k) ?_ ?_
    · rfl
    · intro d hd
      match d with
      | ⟨0, _⟩ => rfl
      | ⟨1, _⟩ => rfl
      | ⟨2, _⟩ => rfl
      | ⟨3, _⟩ => exact absurd rfl hd
    · show 0 + k.val = 0 + k.val
      rfl
  · refine concatenate_apply_piece (t := S4x512x512x48) (3 : Fin S4x512x512x48.rank)
      [⟨S4x512x512x12, y0⟩, ⟨S4x512x512x12, y1⟩, ⟨S4x512x512x12, y2⟩, ⟨S4x512x512x12, y3⟩]
      concatenates_S4x512x512x12_S4x512x512x12_S4x512x512x12_S4x512x512x12_S4x512x512x48_d3
      (ix4 b p q (band 12 (by omega) k)) 1 (by show (1 : Nat) < 4; omega) S4x512x512x12 y1 rfl rfl 12 ?_ (ix4 b p q k) ?_ ?_
    · rfl
    · intro d hd
      match d with
      | ⟨0, _⟩ => rfl
      | ⟨1, _⟩ => rfl
      | ⟨2, _⟩ => rfl
      | ⟨3, _⟩ => exact absurd rfl hd
    · show 12 + k.val = 12 + k.val
      rfl
  · refine concatenate_apply_piece (t := S4x512x512x48) (3 : Fin S4x512x512x48.rank)
      [⟨S4x512x512x12, y0⟩, ⟨S4x512x512x12, y1⟩, ⟨S4x512x512x12, y2⟩, ⟨S4x512x512x12, y3⟩]
      concatenates_S4x512x512x12_S4x512x512x12_S4x512x512x12_S4x512x512x12_S4x512x512x48_d3
      (ix4 b p q (band 24 (by omega) k)) 2 (by show (2 : Nat) < 4; omega) S4x512x512x12 y2 rfl rfl 24 ?_ (ix4 b p q k) ?_ ?_
    · rfl
    · intro d hd
      match d with
      | ⟨0, _⟩ => rfl
      | ⟨1, _⟩ => rfl
      | ⟨2, _⟩ => rfl
      | ⟨3, _⟩ => exact absurd rfl hd
    · show 24 + k.val = 24 + k.val
      rfl
  · refine concatenate_apply_piece (t := S4x512x512x48) (3 : Fin S4x512x512x48.rank)
      [⟨S4x512x512x12, y0⟩, ⟨S4x512x512x12, y1⟩, ⟨S4x512x512x12, y2⟩, ⟨S4x512x512x12, y3⟩]
      concatenates_S4x512x512x12_S4x512x512x12_S4x512x512x12_S4x512x512x12_S4x512x512x48_d3
      (ix4 b p q (band 36 (by omega) k)) 3 (by show (3 : Nat) < 4; omega) S4x512x512x12 y3 rfl rfl 36 ?_ (ix4 b p q k) ?_ ?_
    · rfl
    · intro d hd
      match d with
      | ⟨0, _⟩ => rfl
      | ⟨1, _⟩ => rfl
      | ⟨2, _⟩ => rfl
      | ⟨3, _⟩ => exact absurd rfl hd
    · show 36 + k.val = 36 + k.val
      rfl

/-- THE REFERENCE'S RESULT IS `fused`: of the four start-index arrays its own index arithmetic produces, the four
    tables, the weights and the bias. -/
theorem result_eq (x0 x1 : (⟨S4x512, .i32⟩ : BufTy).Contents (Elt Ideal)) (x2 x3 x4 x5 : (⟨S1025x12, .f32⟩ : BufTy).Contents (Elt Ideal))
    (x6 : (⟨S48x12, .f32⟩ : BufTy).Contents (Elt Ideal)) (x7 : (⟨S12, .f32⟩ : BufTy).Contents (Elt Ideal)) :
    val_main_v62 (F := Ideal) x0 x1 x2 x3 x4 x5 x6 x7
      = fused (val_main_v33 (F := Ideal) x0) (val_main_v40 (F := Ideal) x0 x1) (val_main_v47 (F := Ideal) x0 x1) (val_main_v54 (F := Ideal) x1)
          x2 x3 x4 x5 x6 x7 := by
  funext i
  obtain ⟨b, h, p, q, rfl⟩ : ∃ (b : Fin 4) (h : Fin 12) (p q : Fin 512), i = ix4 b h p q := ⟨i 0, i 1, i 2, i 3, eq_ix4 i⟩
  have e62 : idx_main_v62 (ix4 b h p q) = ix4 b p q h := by
    funext a; match a with | ⟨0, _⟩ => rfl | ⟨1, _⟩ => rfl | ⟨2, _⟩ => rfl | ⟨3, _⟩ => rfl
  have el : ∀ k : Fin 48, lidx_main_v57 (ix4 b p q h) k = ix4 b p q k := fun k => by
    funext a; match a with | ⟨0, _⟩ => rfl | ⟨1, _⟩ => rfl | ⟨2, _⟩ => rfl | ⟨3, _⟩ => rfl
  have er : ∀ k : Fin 48, ridx_main_v57 (ix4 b p q h) k = ix2 k h := fun k => by
    funext a; match a with | ⟨0, _⟩ => rfl | ⟨1, _⟩ => rfl
  have e59 : idx_main_v58 (idx_main_v59 (ix4 b p q h)) = ix1 h := by
    funext a; match a with | ⟨0, _⟩ => rfl
  rw [val_main_v62_apply, e62, val_main_v61_apply, val_main_v60_apply, val_main_v57_apply, val_main_v59_apply, val_main_v58_apply, e59,
    val_main_call0_v0_apply, val_main_call0_cst_apply]
  simp only [el, er]
  rw [sum_four_blocks]
  unfold val_main_v56 val_main_v34 val_main_v41 val_main_v48 val_main_v55
  have hc := fun k : Fin 12 => cat_apply
    (Host.gather rowsDims x2 (val_main_v33 (F := Ideal) x0)) (Host.gather rowsDims x3 (val_main_v40 (F := Ideal) x0 x1))
    (Host.gather rowsDims x4 (val_main_v47 (F := Ideal) x0 x1)) (Host.gather rowsDims x5 (val_main_v54 (F := Ideal) x1)) b p q k
  simp only [fun k => (hc k).1, fun k => (hc k).2.1, fun k => (hc k).2.2.1, fun k => (hc k).2.2.2, gather_rows_apply]
  rfl

end Cert.ReferenceIdeal.RefValue

end
-- ==== Proof.lean ====
/-
  The certificate: the relative-position embedding kernel and its reference compute the same extended reals.

  Kernel: project each of the four position tables through its own 12×12 band of the weights (on the host), look the
  projected tables up at the pairwise start indices, and — in the grid — add the four looked-up values left to right, add
  the bias, take the maximum with zero. Reference: look the raw tables up at the same start indices, lay the four
  12-feature rows end to end, multiply by the whole 48×12 weight matrix, add the bias, take the maximum with zero,
  transpose. Both are `Cert.PosFusion.fused` of the same start-index arrays and the arguments (Proof/KernelValue.lean,
  Proof/RefValue.lean): a 48-term sum is the sum of its four 12-term bands, by commutativity and associativity of the
  extended reals' addition alone, so the precondition is never opened. The lookups clamp an out-of-range start index
  into the table in both programs alike, so the position vectors are unconstrained.
  The three frames are the generated ones (the reference's is its generated run with the result dropped); the
  idealization rewrote nothing, so `preserves` is `True`.
-/
import proofs.«104792_j31379031064638_2_alg».proof.Defs
import proofs.«104792_j31379031064638_2_alg».proof.Proof.Gen.Kernel
import proofs.«104792_j31379031064638_2_alg».proof.Proof.Gen.Kernel.Skeleton
import proofs.«104792_j31379031064638_2_alg».proof.Proof.Gen.Kernel.Launch
import proofs.«104792_j31379031064638_2_alg».proof.Proof.Gen.Kernel.Points
import proofs.«104792_j31379031064638_2_alg».proof.Proof.Gen.Kernel.Frame
import proofs.«104792_j31379031064638_2_alg».proof.Proof.Gen.KernelIdeal
import proofs.«104792_j31379031064638_2_alg».proof.Proof.Gen.KernelIdeal.Skeleton
import proofs.«104792_j31379031064638_2_alg».proof.Proof.Gen.KernelIdeal.Launch
import proofs.«104792_j31379031064638_2_alg».proof.Proof.Gen.KernelIdeal.Points
import proofs.«104792_j31379031064638_2_alg».proof.Proof.Gen.KernelIdeal.Frame
import proofs.«104792_j31379031064638_2_alg».proof.Proof.Gen.ReferenceIdeal
import proofs.«104792_j31379031064638_2_alg».proof.Proof.Gen.KernelIdeal.Value
import proofs.«104792_j31379031064638_2_alg».proof.Proof.Gen.ReferenceIdeal.Run
import proofs.«104792_j31379031064638_2_alg».proof.Proof.Gen.ReferenceIdeal.Read
import proofs.«104792_j31379031064638_2_alg».proof.Proof.Gen.Pre_finite_inputs
import proofs.«104792_j31379031064638_2_alg».proof.Proof.KernelValue
import proofs.«104792_j31379031064638_2_alg».proof.Proof.RefValue
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the result array at `fused` of the same
    start indices and arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
